-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.sign_bit.Statement Cert.KernelIdeal.S16x256x512 .f32
  ∧ IdealRules.sign_bit.Statement Cert.KernelIdeal.S16x256x512 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512 : Shape := ⟨2, ![128, 512]⟩
abbrev S512x64 : Shape := ⟨2, ![512, 64]⟩
abbrev S512 : Shape := ⟨1, ![512]⟩
abbrev S_ : Shape := ⟨0, ![]⟩

class Facts : Prop where
  bcast_S_S128x512 : S_.BroadcastsInDim S128x512 (![] : Fin 0 → Fin S128x512.rank)
  reducesTo_S128x512_S_d0_1 : S128x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_

variable [Facts]

def fn {F : FTy → Type} [FloatOps F] (main_arg0 : FVec F S128x512 .f32) (main_arg1 : FVec F S512x64 .f32) (main_arg2 : IVec S512 32) : IVec S_ 1 :=
  let main_v0 : FVec F S128x512 .f32 := Host.absf main_arg0
  let main_cst : FVec F S_ .f32 := constant S_ .f32 0x7F800000#32
  let main_v1 : FVec F S128x512 .f32 := broadcastInDim S128x512 ![] bcast_S_S128x512 main_cst
  let main_v2 : IVec S128x512 1 := cmpf .olt main_v0 main_v1
  let main_c : IVec S_ 1 := constantI S_ 1 1#1
  let main_v3 : IVec S_ 1 := (fun x v => Host.reduce IntOp.andi x v reducesTo_S128x512_S_d0_1 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  main_v8
-- ==== Kernel.lean ====
abbrev S128x512 : Shape := ⟨2, ![128, 512]⟩
abbrev S512x64 : Shape := ⟨2, ![512, 64]⟩
abbrev S512 : Shape := ⟨1, ![512]⟩
abbrev S128x512x64 : Shape := ⟨3, ![128, 512, 64]⟩
abbrev S16x256 : Shape := ⟨2, ![16, 256]⟩
abbrev S16x256x64 : Shape := ⟨3, ![16, 256, 64]⟩
abbrev S16x256x1 : Shape := ⟨3, ![16, 256, 1]⟩
abbrev S1x1x512 : Shape := ⟨3, ![1, 1, 512]⟩
abbrev S16x256x512 : Shape := ⟨3, ![16, 256, 512]⟩
abbrev S4096x512 : Shape := ⟨2, ![4096, 512]⟩
abbrev S4096x64 : Shape := ⟨2, ![4096, 64]⟩

abbrev nBuf : Space → Nat
  | .hbm => 4
  | .vmem => 6
  | .smem => 0
  | _ => 0

abbrev bufTy : (tb : Table) → Fin (tcTables nBuf tb) → BufTy
  | .hbm, ⟨0, _⟩ => ⟨S128x512, .f32⟩
  | .hbm, ⟨1, _⟩ => ⟨S512x64, .f32⟩
  | .hbm, ⟨2, _⟩ => ⟨S512, .i32⟩
  | .hbm, ⟨3, _⟩ => ⟨S128x512x64, .f32⟩
  | .local _ .vmem, ⟨0, _⟩ => ⟨S16x256, .f32⟩
  | .local _ .vmem, ⟨1, _⟩ => ⟨S16x256, .f32⟩
  | .local _ .vmem, ⟨2, _⟩ => ⟨S512, .i32⟩
  | .local _ .vmem, ⟨3, _⟩ => ⟨S512x64, .f32⟩
  | .local _ .vmem, ⟨4, _⟩ => ⟨S16x256x64, .f32⟩
  | .local _ .vmem, ⟨5, _⟩ => ⟨S16x256x64, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [BitOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S16x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S16x256_S16x256_0_0 : ∀ a, (![0, 0] : Fin 2 → Nat) a + S16x256.size a ≤ S16x256.size a
  h_S16x256 : 0 < S16x256.numel
  inb_S512_S512_0 : ∀ a, (![0] : Fin 1 → Nat) a + S512.size a ≤ S512.size a
  h_S512 : 0 < S512.numel
  shapeCasts_S16x256_S16x256x1 : S16x256.ShapeCasts S16x256x1
  shapeCasts_S512_S1x1x512 : S512.ShapeCasts S1x1x512
  broadcasts_S16x256x1_S16x256x512 : S16x256x1.Broadcasts S16x256x512
  broadcasts_S1x1x512_S16x256x512 : S1x1x512.Broadcasts S16x256x512
  bitsLt_bf16_f32 : FTy.bits .bf16 < FTy.bits .f32
  shapeCasts_S16x256x512_S4096x512 : S16x256x512.ShapeCasts S4096x512
  inb_S512x64_S512x64_0_0 : ∀ a, (![0, 0] : Fin 2 → Nat) a + S512x64.size a ≤ S512x64.size a
  h_S512x64 : 0 < S512x64.numel
  shapeCasts_S4096x64_S16x256x64 : S4096x64.ShapeCasts S16x256x64
  inb_S16x256x64_S16x256x64_0_0_0 : ∀ a, (![0, 0, 0] : Fin 3 → Nat) a + S16x256x64.size a ≤ S16x256x64.size a
  h_S16x256x64 : 0 < S16x256x64.numel
  dot_S4096x512_S512x64_S4096x64_1_0_0_1_n_n_wf : DotDims.WF S4096x512 S512x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256.size a ≤ S128x512.size a
  hwx0_0 : ∀ i : grid0.Coords, EltTy.bits .f32 = 32 ∨ (Rect.block (s := S128x512) S16x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512.size a ≤ S512.size a
  hwx0_1 : ∀ i : grid0.Coords, EltTy.bits .i32 = 32 ∨ (Rect.block (s := S512) S512.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S512x64.size a
  hwx0_2 : ∀ i : grid0.Coords, EltTy.bits .f32 = 32 ∨ (Rect.block (s := S512x64) S512x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x256x64.size a ≤ S128x512x64.size a
  hwx0_3 : ∀ i : grid0.Coords, EltTy.bits .f32 = 32 ∨ (Rect.block (s := S128x512x64) S16x256x64.size (cc0_transform_3 i) (hinb0_3 i)).WholeWords (EltTy.packing .f32)

variable [Facts₀]

def dot_S4096x512_S512x64_S4096x64_1_0_0_1_n_n : DotDims S4096x512 S512x64 S4096x64 where
  lhsContracting := [1]
  rhsContracting := [0]
  lhsNonContracting := [0]
  rhsNonContracting := [1]
  lhsBatch := []
  rhsBatch := []
  wf := dot_S4096x512_S512x64_S4096x64_1_0_0_1_n_n_wf

abbrev win0_0 : Pipeline.Window sig grid0 :=
  Pipeline.Window.ofSpec (Memref.whole main_arg0) S16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S16x256x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S128x512 : Shape := ⟨2, ![128, 512]⟩
abbrev S512x64 : Shape := ⟨2, ![512, 64]⟩
abbrev S512 : Shape := ⟨1, ![512]⟩
abbrev S_ : Shape := ⟨0, ![]⟩
abbrev S128x512x1 : Shape := ⟨3, ![128, 512, 1]⟩
abbrev S1x1x512 : Shape := ⟨3, ![1, 1, 512]⟩
abbrev S128x512x512 : Shape := ⟨3, ![128, 512, 512]⟩
abbrev S128x512x64 : Shape := ⟨3, ![128, 512, 64]⟩

abbrev nBuf : Space → Nat
  | .hbm => 33
  | .vmem => 0
  | .smem => 0
  | _ => 0

abbrev bufTy : (tb : Table) → Fin (tcTables nBuf tb) → BufTy
  | .hbm, ⟨0, _⟩ => ⟨S128x512, .f32⟩
  | .hbm, ⟨1, _⟩ => ⟨S512x64, .f32⟩
  | .hbm, ⟨2, _⟩ => ⟨S512, .i32⟩
  | .hbm, ⟨3, _⟩ => ⟨S_, .f32⟩
  | .hbm, ⟨4, _⟩ => ⟨S128x512, .f32⟩
  | .hbm, ⟨5, _⟩ => ⟨S128x512, .f32⟩
  | .hbm, ⟨6, _⟩ => ⟨S128x512x1, .f32⟩
  | .hbm, ⟨7, _⟩ => ⟨S512, .f32⟩
  | .hbm, ⟨8, _⟩ => ⟨S1x1x512, .f32⟩
  | .hbm, ⟨9, _⟩ => ⟨S128x512x512, .f32⟩
  | .hbm, ⟨10, _⟩ => ⟨S128x512x512, .f32⟩
  | .hbm, ⟨11, _⟩ => ⟨S128x512x512, .f32⟩
  | .hbm, ⟨12, _⟩ => ⟨S_, .f32⟩
  | .hbm, ⟨13, _⟩ => ⟨S128x512x512, .f32⟩
  | .hbm, ⟨14, _⟩ => ⟨S128x512x512, .f32⟩
  | .hbm, ⟨15, _⟩ => ⟨S128x512x512, .f32⟩
  | .hbm, ⟨16, _⟩ => ⟨S_, .f32⟩
  | .hbm, ⟨17, _⟩ => ⟨S128x512x512, .f32⟩
  | .hbm, ⟨18, _⟩ => ⟨S128x512x512, .f32⟩
  | .hbm, ⟨19, _⟩ => ⟨S128x512x512, .f32⟩
  | .hbm, ⟨20, _⟩ => ⟨S128x512x512, .f32⟩
  | .hbm, ⟨21, _⟩ => ⟨S_, .f32⟩
  | .hbm, ⟨22, _⟩ => ⟨S128x512x512, .f32⟩
  | .hbm, ⟨23, _⟩ => ⟨S128x512x512, .f32⟩
  | .hbm, ⟨24, _⟩ => ⟨S_, .f32⟩
  | .hbm, ⟨25, _⟩ => ⟨S128x512x512, .f32⟩
  | .hbm, ⟨26, _⟩ => ⟨S128x512x512, .f32⟩
  | .hbm, ⟨27, _⟩ => ⟨S128x512x512, .f32⟩
  | .hbm, ⟨28, _⟩ => ⟨S_, .f32⟩
  | .hbm, ⟨29, _⟩ => ⟨S128x512x512, .f32⟩
  | .hbm, ⟨30, _⟩ => ⟨S128x512x512, .f32⟩
  | .hbm, ⟨31, _⟩ => ⟨S128x512x512, .f32⟩
  | .hbm, ⟨32, _⟩ => ⟨S128x512x64, .f32⟩
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  bcast_S_S128x512 : S_.BroadcastsInDim S128x512 (![] : Fin 0 → Fin S128x512.rank)
  bcast_S128x512_S128x512x1_0_1 : S128x512.BroadcastsInDim S128x512x1 (![0, 1] : Fin 2 → Fin S128x512x1.rank)
  bcast_S512_S1x1x512_2 : S512.BroadcastsInDim S1x1x512 (![2] : Fin 1 → Fin S1x1x512.rank)
  bcast_S128x512x1_S128x512x512_0_1_2 : S128x512x1.BroadcastsInDim S128x512x512 (![0, 1, 2] : Fin 3 → Fin S128x512x512.rank)
  bcast_S1x1x512_S128x512x512_0_1_2 : S1x1x512.BroadcastsInDim S128x512x512 (![0, 1, 2] : Fin 3 → Fin S128x512x512.rank)
  bcast_S_S128x512x512 : S_.BroadcastsInDim S128x512x512 (![] : Fin 0 → Fin S128x512x512.rank)
  dot_S128x512x512_S512x64_S128x512x64_2_0_01_1_n_n_wf : DotDims.WF S128x512x512 S512x64 S128x512x64 [2] [0] [0, 1] [1] [] []

variable [Facts₀]

def dot_S128x512x512_S512x64_S128x512x64_2_0_01_1_n_n : DotDims S128x512x512 S512x64 S128x512x64 where
  lhsContracting := [2]
  rhsContracting := [0]
  lhsNonContracting := [0, 1]
  rhsNonContracting := [1]
  lhsBatch := []
  rhsBatch := []
  wf := dot_S128x512x512_S512x64_S128x512x64_2_0_01_1_n_n_wf

class Facts : Prop extends Facts₀ where

variable [Facts]
-- ==== Proof.LibRank3Layout.lean ====
/-
  Rank-3 layout operations read at coordinates — the forms a body meets when it compares every entry of an `[a, b]`
  block with every entry of a length-`n` vector and then flattens the two leading axes for a matrix product:

  • a TRAILING unit axis added by a shape cast, `[a, b] → [a, b, 1]` (`shapeCast_ab_ab1_apply`);
  • a vector laid along the LAST axis by a shape cast, `[n] → [1, 1, n]` (`shapeCast_n_11n_apply`);
  • the broadcast of the first along the last axis, `[a, b, 1] → [a, b, n]` (`broadcastTo_ab1_abn_apply`), and of the
    second along the two leading axes, `[1, 1, n] → [a, b, n]` (`broadcastTo_11n_abn_apply`);
  • the two composites, which read `(r, s, k)` at `(r, s)` of the block (`column_apply`) and at `k` of the vector
    (`row_apply`);
  • the two leading axes MERGED, `[a, b, n] → [m, n]` with `m = a·b`, and SPLIT again, `[m, d] → [a, b, d]`: row
    `j = r·b + s` of the flat array is row `(r, s)` of the stacked one (`shapeCast_abn_mn_apply`,
    `shapeCast_md_abd_apply`; the flat row is passed with the equation `j = r·b + s`, so that a literal extent such
    as `4096` need not be recognised as a product).

  Each is the library's `shapeCast_apply` (equal row-major positions) or `broadcastTo_apply` (a unit axis reads
  coordinate `0`) with both indices written by coordinates, at every extent.
-/
import Idealize.ShloMosaic.Lib.Pipeline.Value
import Idealize.ShloMosaic.Lib.ValueIdx

namespace Cert.Rank3Layout

open Idealize.ShloMosaic Idealize.ShloMosaic.ValueIdx

variable {α : Type}

/-- An `[a, b]` array cast to `[a, b, 1]` reads, at `(r, s, u)`, the operand at `(r, s)`, whatever the unit coordinate. -/
theorem shapeCast_ab_ab1_apply {a b : ℕ} (x : (⟨2, ![a, b]⟩ : Shape).Idx → α)
    (h : (⟨2, ![a, b]⟩ : Shape).ShapeCasts ⟨3, ![a, b, 1]⟩) (r : Fin a) (s : Fin b) (u : Fin 1) :
    shapeCast ⟨3, ![a, b, 1]⟩ x h (ix3 r s u) = x (ix2 r s) :=
  shapeCast_apply x h _ _ (by
    have hu : u.val = 0 := by omega
    rw [Shape.rowMajor_val_two, Shape.rowMajor_val_three]
    show r.val * b + s.val = (r.val * b + s.val) * 1 + u.val
    rw [hu, Nat.mul_one, Nat.add_zero])

/-- An `[n]` vector cast to `[1, 1, n]` reads, at `(u, u', k)`, the operand at `k`, whatever the unit coordinates. -/
theorem shapeCast_n_11n_apply {n : ℕ} (q : (⟨1, ![n]⟩ : Shape).Idx → α)
    (h : (⟨1, ![n]⟩ : Shape).ShapeCasts ⟨3, ![1, 1, n]⟩) (u u' : Fin 1) (k : Fin n) :
    shapeCast ⟨3, ![1, 1, n]⟩ q h (ix3 u u' k) = q (ix1 k) :=
  shapeCast_apply q h _ _ (by
    have hu : u.val = 0 := by omega
    have hu' : u'.val = 0 := by omega
    rw [Shape.rowMajor_val_one, Shape.rowMajor_val_three]
    show k.val = (u.val * 1 + u'.val) * n + k.val
    rw [hu, hu']; simp)

/-- An `[a, b, 1]` array broadcast to `[a, b, n]` reads, at `(r, s, k)`, the operand at `(r, s, 0)`. -/
theorem broadcastTo_ab1_abn_apply {a b n : ℕ} (y : (⟨3, ![a, b, 1]⟩ : Shape).Idx → α)
    (h : (⟨3, ![a, b, 1]⟩ : Shape).Broadcasts ⟨3, ![a, b, n]⟩) (r : Fin a) (s : Fin b) (k : Fin n) :
    broadcastTo ⟨3, ![a, b, n]⟩ y h (ix3 r s k) = y (ix3 r s (0 : Fin 1)) := by
  refine broadcastTo_apply y h (ix3 r s k) (ix3 r s (0 : Fin 1)) fun ax => ?_
  match ax with
  | ⟨0, _⟩ =>
    show r.val = if a = 1 then 0 else r.val
    split
    · have := r.isLt; omega
    · rfl
  | ⟨1, _⟩ =>
    show s.val = if b = 1 then 0 else s.val
    split
    · have := s.isLt; omega
    · rfl
  | ⟨2, _⟩ => rfl

/-- A `[1, 1, n]` array broadcast to `[a, b, n]` reads, at `(r, s, k)`, the operand at `(0, 0, k)`. -/
theorem broadcastTo_11n_abn_apply {a b n : ℕ} (q : (⟨3, ![1, 1, n]⟩ : Shape).Idx → α)
    (h : (⟨3, ![1, 1, n]⟩ : Shape).Broadcasts ⟨3, ![a, b, n]⟩) (r : Fin a) (s : Fin b) (k : Fin n) :
    broadcastTo ⟨3, ![a, b, n]⟩ q h (ix3 r s k) = q (ix3 (0 : Fin 1) (0 : Fin 1) k) := by
  refine broadcastTo_apply q h (ix3 r s k) (ix3 (0 : Fin 1) (0 : Fin 1) k) fun ax => ?_
  match ax with
  | ⟨0, _⟩ => rfl
  | ⟨1, _⟩ => rfl
  | ⟨2, _⟩ =>
    show k.val = if n = 1 then 0 else k.val
    split
    · have := k.isLt; omega
    · rfl

/-- An `[a, b]` block given a trailing unit axis and broadcast along it: `(r, s, k)` reads the block at `(r, s)`. -/
theorem column_apply {a b n : ℕ} (x : (⟨2, ![a, b]⟩ : Shape).Idx → α)
    (hc : (⟨2, ![a, b]⟩ : Shape).ShapeCasts ⟨3, ![a, b, 1]⟩) (hb : (⟨3, ![a, b, 1]⟩ : Shape).Broadcasts ⟨3, ![a, b, n]⟩)
    (r : Fin a) (s : Fin b) (k : Fin n) :
    broadcastTo ⟨3, ![a, b, n]⟩ (shapeCast ⟨3, ![a, b, 1]⟩ x hc) hb (ix3 r s k) = x (ix2 r s) :=
  (broadcastTo_ab1_abn_apply _ hb r s k).trans (shapeCast_ab_ab1_apply x hc r s 0)

/-- A length-`n` vector laid along the last axis and broadcast over the two leading ones: `(r, s, k)` reads it at `k`. -/
theorem row_apply {a b n : ℕ} (q : (⟨1, ![n]⟩ : Shape).Idx → α)
    (hc : (⟨1, ![n]⟩ : Shape).ShapeCasts ⟨3, ![1, 1, n]⟩) (hb : (⟨3, ![1, 1, n]⟩ : Shape).Broadcasts ⟨3, ![a, b, n]⟩)
    (r : Fin a) (s : Fin b) (k : Fin n) :
    broadcastTo ⟨3, ![a, b, n]⟩ (shapeCast ⟨3, ![1, 1, n]⟩ q hc) hb (ix3 r s k) = q (ix1 k) :=
  (broadcastTo_11n_abn_apply _ hb r s k).trans (shapeCast_n_11n_apply q hc 0 0 k)

/-- The two leading axes merged: an `[a, b, n]` array cast to `[m, n]` reads, at `(j, k)` with `j = r·b + s`, the
    operand at `(r, s, k)`. -/
theorem shapeCast_abn_mn_apply {a b n m : ℕ} (w : (⟨3, ![a, b, n]⟩ : Shape).Idx → α)
    (h : (⟨3, ![a, b, n]⟩ : Shape).ShapeCasts ⟨2, ![m, n]⟩) (r : Fin a) (s : Fin b) (k : Fin n) (j : Fin m)
    (hj : j.val = r.val * b + s.val) :
    shapeCast ⟨2, ![m, n]⟩ w h (ix2 j k) = w (ix3 r s k) :=
  shapeCast_apply w h _ _ (by
    rw [Shape.rowMajor_val_three, Shape.rowMajor_val_two]
    show (r.val * b + s.val) * n + k.val = j.val * n + k.val
    rw [hj])

/-- The leading axis split in two: an `[m, d]` array cast to `[a, b, d]` reads, at `(r, s, e)`, the operand at `(j, e)`
    with `j = r·b + s`. -/
theorem shapeCast_md_abd_apply {a b d m : ℕ} (z : (⟨2, ![m, d]⟩ : Shape).Idx → α)
    (h : (⟨2, ![m, d]⟩ : Shape).ShapeCasts ⟨3, ![a, b, d]⟩) (r : Fin a) (s : Fin b) (e : Fin d) (j : Fin m)
    (hj : j.val = r.val * b + s.val) :
    shapeCast ⟨3, ![a, b, d]⟩ z h (ix3 r s e) = z (ix2 j e) :=
  shapeCast_apply z h _ _ (by
    rw [Shape.rowMajor_val_two, Shape.rowMajor_val_three]
    show j.val * d + e.val = (r.val * b + s.val) * d + e.val
    rw [hj])

end Cert.Rank3Layout
-- ==== Proof.Consts.lean ====
/-
  The float constants the two programs spell, as the extended reals their patterns denote: the half-width 1/2 of the
  window, the number 512 of grid points the timestamp is scaled by, the reference's 2 and 1, and the precondition's
  `+inf`. (The zero pattern is the library's `Ideal.ofBits_zero_f32`.) Stated once, so that no other module unfolds `Ideal.ofBits`.
-/
import Idealize.ShloMosaic.PureOps.Ideal

noncomputable section

namespace Cert.Consts

open Idealize.ShloMosaic

/-- `0.5` denotes the real `1/2`. -/
theorem ofBits_half : Ideal.ofBits .f32 0x3F000000#32 = ((1 / 2 : ℝ) : EReal) := by
  simp [Ideal.ofBits, Ideal.ieee, -EReal.coe_mul]; norm_num

/-- `512.0` denotes the real `512`. -/
theorem ofBits_512 : Ideal.ofBits .f32 0x44000000#32 = ((512 : ℝ) : EReal) := by
  simp [Ideal.ofBits, Ideal.ieee, -EReal.coe_mul]; norm_num

/-- `2.0` denotes the real `2`. -/
theorem ofBits_two : Ideal.ofBits .f32 0x40000000#32 = ((2 : ℝ) : EReal) := by
  simp [Ideal.ofBits, Ideal.ieee, -EReal.coe_mul]; norm_num

/-- The pattern of `+inf`, which the precondition compares magnitudes with, denotes `⊤`. -/
theorem ofBits_inf : Ideal.ofBits .f32 0x7F800000#32 = ⊤ := by
  simp [Ideal.ofBits, Ideal.ieee]

/-- `1.0` denotes the real `1`. -/
theorem ofBits_one : Ideal.ofBits .f32 0x3F800000#32 = ((1 : ℝ) : EReal) := by
  simp [Ideal.ofBits, Ideal.ieee, -EReal.coe_mul]; norm_num

end Cert.Consts

end
-- ==== Proof.WindowLaw.lean ====
/-
  The rectangular window, as each program weighs one (timestamp, grid point) pair, and the law that joins the two.

  With `d = 512·x − p` (the scaled timestamp `x` against the grid point `p`), `s₊ = sign (d + 1/2)` and
  `s₋ = sign (d − 1/2)`, one side weighs the pair by `(s₊ − s₋)²` and the other by `(s₊ − s₋)/2 · (1 + s₊) · (1 − s₋)`.
  Because `d − 1/2 < d + 1/2`, only five of the nine sign pairs occur — `(−1,−1)`, `(0,−1)`, `(1,−1)`, `(1,0)`, `(1,1)` —
  and on those both expressions are `0, 1, 4, 1, 0`: inside the window `4`, on either edge `1`, outside `0`. On the
  other four pairs the two expressions differ, so the law needs `x` and `p` FINITE: that is where the order
  `d − 1/2 < d + 1/2` comes from. The first side also folds the half-width into the grid point, `512·x − (p ∓ 1/2)`,
  which on reals is the same number as `(512·x − p) ± 1/2`.
-/
import Idealize.ShloMosaic.PureOps.Ideal.Laws
import proofs.«166597_j15032385536232_2_alg».proof.Proof.Consts

noncomputable section

namespace Cert.Window

open Idealize.ShloMosaic

/-- The weight with the half-width folded into the grid point and the difference of signs SQUARED:
    `(sign (512·x − (p − 1/2)) − sign (512·x − (p + 1/2)))²`, the constants as the patterns that spell them. -/
def sqWeight (x p : EReal) : EReal :=
  (Ideal.sign (x * Ideal.ofBits .f32 0x44000000#32 - (p - Ideal.ofBits .f32 0x3F000000#32))
      - Ideal.sign (x * Ideal.ofBits .f32 0x44000000#32 - (p + Ideal.ofBits .f32 0x3F000000#32)))
    * (Ideal.sign (x * Ideal.ofBits .f32 0x44000000#32 - (p - Ideal.ofBits .f32 0x3F000000#32))
      - Ideal.sign (x * Ideal.ofBits .f32 0x44000000#32 - (p + Ideal.ofBits .f32 0x3F000000#32)))

/-- The weight as the product `(s₊ − s₋)/2 · (1 + s₊) · (1 − s₋)` of `s₊ = sign (512·x − p + 1/2)` and
    `s₋ = sign (512·x − p − 1/2)`, the constants as the patterns that spell them. -/
def prodWeight (x p : EReal) : EReal :=
  Ideal.div
      (Ideal.sign (x * Ideal.ofBits .f32 0x44000000#32 - p + Ideal.ofBits .f32 0x3F000000#32)
        - Ideal.sign (x * Ideal.ofBits .f32 0x44000000#32 - p - Ideal.ofBits .f32 0x3F000000#32))
      (Ideal.ofBits .f32 0x40000000#32)
    * (Ideal.ofBits .f32 0x3F800000#32
        + Ideal.sign (x * Ideal.ofBits .f32 0x44000000#32 - p + Ideal.ofBits .f32 0x3F000000#32))
    * (Ideal.ofBits .f32 0x3F800000#32
        - Ideal.sign (x * Ideal.ofBits .f32 0x44000000#32 - p - Ideal.ofBits .f32 0x3F000000#32))

/-- The law on the reals: for `v < u` the signs `(sign u, sign v)` are one of the five ordered pairs, and on each the
    square of their difference is half the difference times `(1 + sign u)(1 − sign v)`. -/
theorem sign_pair_law (u v : ℝ) (h : v < u) :
    ((SignType.sign u : ℝ) - (SignType.sign v : ℝ)) * ((SignType.sign u : ℝ) - (SignType.sign v : ℝ))
      = ((SignType.sign u : ℝ) - (SignType.sign v : ℝ)) * (1 / 2) * (1 + (SignType.sign u : ℝ))
          * (1 - (SignType.sign v : ℝ)) := by
  rcases lt_trichotomy u 0 with hu | hu | hu
  · rw [sign_neg hu, sign_neg (h.trans hu)]; norm_num
  · subst hu; rw [sign_zero, sign_neg h]; norm_num
  · rcases lt_trichotomy v 0 with hv | hv | hv
    · rw [sign_pos hu, sign_neg hv]; norm_num
    · subst hv; rw [sign_pos hu, sign_zero]; norm_num
    · rw [sign_pos hu, sign_pos hv]; norm_num

/-- THE LAW: at a finite timestamp and a finite grid point the two weights are one extended real. -/
theorem sqWeight_eq_prodWeight (x p : ℝ) : sqWeight (x : EReal) (p : EReal) = prodWeight (x : EReal) (p : EReal) := by
  unfold sqWeight prodWeight
  rw [Cert.Consts.ofBits_half, Cert.Consts.ofBits_512, Cert.Consts.ofBits_two, Cert.Consts.ofBits_one]
  have e1 : (x : EReal) * ((512 : ℝ) : EReal) - ((p : EReal) - ((1 / 2 : ℝ) : EReal))
      = ((x * 512 - p + 1 / 2 : ℝ) : EReal) := by
    rw [← EReal.coe_mul, ← EReal.coe_sub, ← EReal.coe_sub]; congr 1; ring
  have e2 : (x : EReal) * ((512 : ℝ) : EReal) - ((p : EReal) + ((1 / 2 : ℝ) : EReal))
      = ((x * 512 - p - 1 / 2 : ℝ) : EReal) := by
    rw [← EReal.coe_mul, ← EReal.coe_add, ← EReal.coe_sub]; congr 1; ring
  have e3 : (x : EReal) * ((512 : ℝ) : EReal) - (p : EReal) + ((1 / 2 : ℝ) : EReal)
      = ((x * 512 - p + 1 / 2 : ℝ) : EReal) := by
    rw [← EReal.coe_mul, ← EReal.coe_sub, ← EReal.coe_add]
  have e4 : (x : EReal) * ((512 : ℝ) : EReal) - (p : EReal) - ((1 / 2 : ℝ) : EReal)
      = ((x * 512 - p - 1 / 2 : ℝ) : EReal) := by
    rw [← EReal.coe_mul, ← EReal.coe_sub, ← EReal.coe_sub]
  rw [e1, e2, e3, e4, Ideal.div_coe (by norm_num : (2 : ℝ) ≠ 0)]
  simp only [Ideal.sign_coe]
  exact_mod_cast sign_pair_law (x * 512 - p + 1 / 2) (x * 512 - p - 1 / 2) (by linarith)

end Cert.Window

end
-- ==== Proof.KernelPayload.lean ====
/-
  What one grid point computes, read at one entry of its output block.

  The body holds a `[16, 256]` block of timestamps, the 512 grid points and the `[512, 64]` embedding table. It
  compares every timestamp `(r, s)` of the block with every grid point `k` — a `[16, 256, 512]` tensor of window
  weights, each the squared difference of two signs —, flattens the block's two axes to `4096` rows, multiplies the
  `[4096, 512]` weights into the table, and splits the rows again. So entry `(r, s, e)` of the block is row
  `r·256 + s` of the product at column `e`: `∑ k, w (x[r, s], p[k]) · E[k, e]` with `w = Window.sqWeight`.
  The changes of float format on the way to the matrix unit are the identity on extended reals.
-/
import proofs.«166597_j15032385536232_2_alg».proof.Proof.Gen.KernelIdeal.Skeleton
import Idealize.ShloMosaic.PureOps.Ideal.Laws
import Idealize.ShloMosaic.Lib.ValueIdx
import proofs.«166597_j15032385536232_2_alg».proof.Proof.LibRank3Layout
import proofs.«166597_j15032385536232_2_alg».proof.Proof.WindowLaw

noncomputable section

namespace Cert.KernelIdeal.Payload

open Cert.KernelIdeal Cert.KernelIdeal.Gen Idealize.ShloMosaic Idealize.ShloMosaic.ValueIdx

/-! ## The matrix product at an entry -/

theorem lhs_row (j : S4096x64.Idx) (q : dot_S4096x512_S512x64_S4096x64_1_0_0_1_n_n.contr.Idx) :
    (dot_S4096x512_S512x64_S4096x64_1_0_0_1_n_n.lhsIdx j q 0).val = (j 0).val := by
  unfold DotDims.lhsIdx
  rw [dif_neg (show ¬(0 : Fin S4096x512.rank) ∈ dot_S4096x512_S512x64_S4096x64_1_0_0_1_n_n.lhsBatch by decide),
    dif_pos (show (0 : Fin S4096x512.rank) ∈ dot_S4096x512_S512x64_S4096x64_1_0_0_1_n_n.lhsNonContracting by decide)]
  rfl

theorem lhs_contr (j : S4096x64.Idx) (q : dot_S4096x512_S512x64_S4096x64_1_0_0_1_n_n.contr.Idx) :
    (dot_S4096x512_S512x64_S4096x64_1_0_0_1_n_n.lhsIdx j q 1).val = (q ⟨0, by decide⟩).val :=
  dot_S4096x512_S512x64_S4096x64_1_0_0_1_n_n.lhsIdx_val_of_single rfl j q

theorem rhs_contr (j : S4096x64.Idx) (q : dot_S4096x512_S512x64_S4096x64_1_0_0_1_n_n.contr.Idx) :
    (dot_S4096x512_S512x64_S4096x64_1_0_0_1_n_n.rhsIdx j q 0).val = (q ⟨0, by decide⟩).val :=
  dot_S4096x512_S512x64_S4096x64_1_0_0_1_n_n.rhsIdx_val_of_single rfl j q

theorem rhs_col (j : S4096x64.Idx) (q : dot_S4096x512_S512x64_S4096x64_1_0_0_1_n_n.contr.Idx) :
    (dot_S4096x512_S512x64_S4096x64_1_0_0_1_n_n.rhsIdx j q 1).val = (j 1).val := by
  unfold DotDims.rhsIdx
  rw [dif_neg (show ¬(1 : Fin S512x64.rank) ∈ dot_S4096x512_S512x64_S4096x64_1_0_0_1_n_n.rhsBatch by decide),
    dif_pos (show (1 : Fin S512x64.rank) ∈ dot_S4096x512_S512x64_S4096x64_1_0_0_1_n_n.rhsNonContracting by decide)]
  rfl

/-- The `[4096, 512] × [512, 64]` product into a zero accumulator, at row `j` and column `e`: the sum over the 512
    grid points of the left operand's row times the right operand's column. -/
theorem matmul_entry (L : FVec Ideal S4096x512 .bf16) (R : FVec Ideal S512x64 .bf16) (j : Fin 4096) (e : Fin 64) :
    matmul dot_S4096x512_S512x64_S4096x64_1_0_0_1_n_n none L R (constant S4096x64 .f32 0x00000000#32) (ix2 j e)
      = ∑ k : Fin 512, L (ix2 j k) * R (ix2 k e) := by
  simp only [matmul]
  rw [Ideal.matmul_constant_zero_apply,
    ← Equiv.sum_comp (contrEquiv1 dot_S4096x512_S512x64_S4096x64_1_0_0_1_n_n 512 rfl rfl).symm]
  refine Finset.sum_congr rfl fun k _ => ?_
  have hk := contrEquiv1_symm_val dot_S4096x512_S512x64_S4096x64_1_0_0_1_n_n 512 rfl rfl k
  have el : dot_S4096x512_S512x64_S4096x64_1_0_0_1_n_n.lhsIdx (ix2 j e)
      ((contrEquiv1 dot_S4096x512_S512x64_S4096x64_1_0_0_1_n_n 512 rfl rfl).symm k) = ix2 j k :=
    funext fun a => Fin.ext (by
      match a with
      | ⟨0, _⟩ => exact lhs_row _ _
      | ⟨1, _⟩ => exact (lhs_contr _ _).trans hk)
  have er : dot_S4096x512_S512x64_S4096x64_1_0_0_1_n_n.rhsIdx (ix2 j e)
      ((contrEquiv1 dot_S4096x512_S512x64_S4096x64_1_0_0_1_n_n 512 rfl rfl).symm k) = ix2 k e :=
    funext fun a => Fin.ext (by
      match a with
      | ⟨0, _⟩ => exact (rhs_contr _ _).trans hk
      | ⟨1, _⟩ => exact rhs_col _ _)
  rw [el, er]

/-! ## The window weights at an entry -/

/-- The squared difference of the signs of two `[16, 256, 512]` tensors, as the body spells it — each sign the
    select of `±1` by the order where the magnitude is positive, else the value itself —, read at an index. -/
theorem sq_sign_diff_apply (A B : FVec Ideal S16x256x512 .f32) (j : S16x256x512.Idx) :
    mulf
        (subf
          (truncf .bf16 (select (cmpf .ogt (absf A) (broadcast S16x256x512 (Scalar.ofBits .f32 0x00000000#32)))
            (select (cmpf .olt A (constant S16x256x512 .f32 0x00000000#32)) (constant S16x256x512 .f32 0xBF800000#32)
              (constant S16x256x512 .f32 0x3F800000#32)) A) bitsLt_bf16_f32 : FVec Ideal S16x256x512 .bf16)
          (truncf .bf16 (select (cmpf .ogt (absf B) (broadcast S16x256x512 (Scalar.ofBits .f32 0x00000000#32)))
            (select (cmpf .olt B (constant S16x256x512 .f32 0x00000000#32)) (constant S16x256x512 .f32 0xBF800000#32)
              (constant S16x256x512 .f32 0x3F800000#32)) B) bitsLt_bf16_f32 : FVec Ideal S16x256x512 .bf16))
        (subf
          (truncf .bf16 (select (cmpf .ogt (absf A) (broadcast S16x256x512 (Scalar.ofBits .f32 0x00000000#32)))
            (select (cmpf .olt A (constant S16x256x512 .f32 0x00000000#32)) (constant S16x256x512 .f32 0xBF800000#32)
              (constant S16x256x512 .f32 0x3F800000#32)) A) bitsLt_bf16_f32 : FVec Ideal S16x256x512 .bf16)
          (truncf .bf16 (select (cmpf .ogt (absf B) (broadcast S16x256x512 (Scalar.ofBits .f32 0x00000000#32)))
            (select (cmpf .olt B (constant S16x256x512 .f32 0x00000000#32)) (constant S16x256x512 .f32 0xBF800000#32)
              (constant S16x256x512 .f32 0x3F800000#32)) B) bitsLt_bf16_f32 : FVec Ideal S16x256x512 .bf16)) j
      = (Ideal.sign (A j) - Ideal.sign (B j)) * (Ideal.sign (A j) - Ideal.sign (B j)) := by
  have hA := Ideal.jnp_sign_eq_sign_f32 (A j)
  have hB := Ideal.jnp_sign_eq_sign_f32 (B j)
  show (_ - _) * (_ - _) = _
  exact congrArg₂ (· * ·) (congrArg₂ (· - ·) hA hB) (congrArg₂ (· - ·) hA hB)

/-- The scaled timestamp against a shifted grid point, both broadcast to `[16, 256, 512]`, at `(r, s, k)`. -/
theorem diff_apply (x : FVec Ideal S16x256 .f32) (q : FVec Ideal S512 .f32) (r : Fin 16) (s : Fin 256) (k : Fin 512) :
    subf (broadcastTo S16x256x512 (shapeCast S16x256x1 x shapeCasts_S16x256_S16x256x1) broadcasts_S16x256x1_S16x256x512)
        (broadcastTo S16x256x512 (shapeCast S1x1x512 q shapeCasts_S512_S1x1x512) broadcasts_S1x1x512_S16x256x512)
        (ix3 r s k)
      = x (ix2 r s) - q (ix1 k) := by
  show _ - _ = _
  rw [Cert.Rank3Layout.column_apply x shapeCasts_S16x256_S16x256x1 broadcasts_S16x256x1_S16x256x512 r s k,
    Cert.Rank3Layout.row_apply q shapeCasts_S512_S1x1x512 broadcasts_S1x1x512_S16x256x512 r s k]

/-! ## The payload at an entry -/

/-- Entry `(r, s, e)` of what the body stores: the window weights of timestamp `(r, s)` of its block against the 512
    grid points, combining the rows of the table at column `e`. -/
theorem pay_apply (v0 : Vec Ideal S16x256 .f32) (v1 : Vec Ideal S512 .i32) (v44 : Vec Ideal S512x64 .f32)
    (r : Fin 16) (s : Fin 256) (e : Fin 64) :
    k0_pay1 v0 v1 v44 (ix3 r s e)
      = ∑ k : Fin 512, Cert.Window.sqWeight (v0 (ix2 r s)) ((((v1 (ix1 k)) : BitVec 32).toInt : ℝ) : EReal) * v44 (ix2 k e) := by
  unfold k0_pay1
  refine (Cert.Rank3Layout.shapeCast_md_abd_apply _ shapeCasts_S4096x64_S16x256x64 r s e
    (⟨r.val * 256 + s.val, by omega⟩ : Fin 4096) rfl).trans ?_
  refine (matmul_entry _ _ _ e).trans ?_
  refine Finset.sum_congr rfl fun k _ => ?_
  refine congrArg₂ (· * ·) ?_ rfl
  refine (Cert.Rank3Layout.shapeCast_abn_mn_apply _ shapeCasts_S16x256x512_S4096x512 r s k _ rfl).trans ?_
  refine (sq_sign_diff_apply _ _ _).trans ?_
  unfold Cert.Window.sqWeight
  rw [diff_apply, diff_apply]
  rfl

end Cert.KernelIdeal.Payload

end
-- ==== Proof.Spec.lean ====
/-
  The specification: the embedding lookup as ONE function of the three argument arrays.

  Entry `(b, s, e)` of the result is `∑ k, w (x[b, s], p[k]) · E[k, e]` over the 512 grid points: the timestamp
  `x[b, s]` is weighed against every grid point `p[k]` (an integer, read exactly) by the rectangular window, and the
  weights combine the rows of the embedding table `E`. `lookupSq` weighs by the squared difference of signs,
  `lookupProd` by the product form; where every timestamp is finite they are one array (`lookupProd_eq_lookupSq`,
  the window law term by term: a grid point is an integer, hence finite, and the table's entries are never opened —
  equal weights give equal products and equal sums on all extended reals).
-/
import Idealize.ShloMosaic.Lib.ValueIdx
import proofs.«166597_j15032385536232_2_alg».proof.Proof.WindowLaw

noncomputable section

namespace Cert.Spec

open Idealize.ShloMosaic Idealize.ShloMosaic.ValueIdx

/-- The lookup with the window weighed as the squared difference of signs. -/
def lookupSq (x : (⟨2, ![128, 512]⟩ : Shape).Idx → EReal) (E : (⟨2, ![512, 64]⟩ : Shape).Idx → EReal)
    (p : (⟨1, ![512]⟩ : Shape).Idx → BitVec 32) : (⟨3, ![128, 512, 64]⟩ : Shape).Idx → EReal :=
  fun i => ∑ k : Fin 512, Cert.Window.sqWeight (x (ix2 (i 0) (i 1))) (((p (ix1 k)).toInt : ℝ) : EReal) * E (ix2 k (i 2))

/-- The lookup with the window weighed in the product form. -/
def lookupProd (x : (⟨2, ![128, 512]⟩ : Shape).Idx → EReal) (E : (⟨2, ![512, 64]⟩ : Shape).Idx → EReal)
    (p : (⟨1, ![512]⟩ : Shape).Idx → BitVec 32) : (⟨3, ![128, 512, 64]⟩ : Shape).Idx → EReal :=
  fun i => ∑ k : Fin 512, Cert.Window.prodWeight (x (ix2 (i 0) (i 1))) (((p (ix1 k)).toInt : ℝ) : EReal) * E (ix2 k (i 2))

/-- Where every timestamp is a real number the two lookups are one array. -/
theorem lookupProd_eq_lookupSq (x : (⟨2, ![128, 512]⟩ : Shape).Idx → EReal) (E : (⟨2, ![512, 64]⟩ : Shape).Idx → EReal)
    (p : (⟨1, ![512]⟩ : Shape).Idx → BitVec 32) (hx : ∀ j, ∃ r : ℝ, x j = (r : EReal)) :
    lookupProd x E p = lookupSq x E p := by
  funext i
  unfold lookupProd lookupSq
  refine Finset.sum_congr rfl fun k _ => ?_
  obtain ⟨r, hr⟩ := hx (ix2 (i 0) (i 1))
  rw [hr, Cert.Window.sqWeight_eq_prodWeight]

end Cert.Spec

end
-- ==== Proof.KernelValue.lean ====
/-
  From blocks to the array: after the run the kernel's result array is the squared-sign lookup of its three arguments.

  The grid is `8 × 2`; point `(g, h)` holds timestamps block `(g, h)` (rows `16g …`, columns `256h …`), the whole
  vector of grid points and the whole table, and writes back block `(g, h, 0)` of the `[128, 512, 64]` result. Entry
  `y` of that block is result index `(16g + y₀, 256h + y₁, y₂)`, and by the payload lemma it is the lookup's value
  there, because the timestamp it reads is `x[16g + y₀, 256h + y₁]`. Every result index lies in exactly the block
  `(i₀ / 16, i₁ / 256, 0)`, so the 16 blocks cover the array and the array IS the lookup.
-/
import proofs.«166597_j15032385536232_2_alg».proof.Proof.Gen.KernelIdeal.Value
import proofs.«166597_j15032385536232_2_alg».proof.Proof.KernelPayload
import proofs.«166597_j15032385536232_2_alg».proof.Proof.Spec

set_option maxRecDepth 16384

noncomputable section

namespace Cert.KernelIdeal.Lookup

open Cert.KernelIdeal Cert.KernelIdeal.Gen Cert.KernelIdeal.Value Idealize.ShloMosaic Idealize.ShloMosaic.TcCoe
open Idealize.SL.Sem Idealize.ShloMosaic.ValueIdx
open Idealize.ShloMosaic.Pipeline (Dat)

variable (m : (ℓ : Loc nD τ sig) → Buf (Elt Ideal) ℓ) (ρ : Dev nD → PrngReg)

theorem zeros1 : (![0] : Fin 1 → Nat) = fun _ => 0 := funext fun a => by fin_cases a <;> rfl
theorem zeros2 : (![0, 0] : Fin 2 → Nat) = fun _ => 0 := funext fun a => by fin_cases a <;> rfl
theorem zeros3 : (![0, 0, 0] : Fin 3 → Nat) = fun _ => 0 := funext fun a => by fin_cases a <;> rfl

/-- What a point computes, set against the lookup: if the block entry's timestamp, the grid points and the table's
    column are those the lookup reads at result index `i`, the payload at block entry `y` is the lookup at `i`. -/
theorem pay_eq_lookup (X : S128x512.Idx → EReal) (E : S512x64.Idx → EReal) (P : S512.Idx → BitVec 32)
    (v0 : Vec Ideal S16x256 .f32) (v1 : Vec Ideal S512 .i32) (v44 : Vec Ideal S512x64 .f32)
    (y : S16x256x64.Idx) (i : S128x512x64.Idx)
    (hx : v0 (ix2 (y 0) (y 1)) = X (ix2 (i 0) (i 1)))
    (hp : ∀ k : Fin 512, v1 (ix1 k) = P (ix1 k))
    (hE : ∀ k : Fin 512, v44 (ix2 k (y 2)) = E (ix2 k (i 2))) :
    k0_pay1 v0 v1 v44 y = Cert.Spec.lookupSq X E P i := by
  refine (congrArg (k0_pay1 v0 v1 v44) (eq_ix3 y)).trans ?_
  refine (Cert.KernelIdeal.Payload.pay_apply v0 v1 v44 (y 0) (y 1) (y 2)).trans ?_
  unfold Cert.Spec.lookupSq
  refine Finset.sum_congr rfl fun k _ => ?_
  rw [hx, hp k, hE k]

/-- The printed index maps, decided over the 16 grid points: the timestamps' block moves with the result's block on
    both axes, the grid points' and the table's blocks stay at the origin, and the result's block index is
    `(g, h, 0)` with `g ≤ 7`, `h ≤ 1`. -/
theorem index_facts : ∀ t : Fin cfg0.N, win0_0.index t (0 : Fin 2) = win0_3.index t (0 : Fin 3)
    ∧ win0_0.index t (1 : Fin 2) = win0_3.index t (1 : Fin 3)
    ∧ win0_1.index t (0 : Fin 1) = 0
    ∧ win0_2.index t (0 : Fin 2) = 0
    ∧ win0_2.index t (1 : Fin 2) = 0
    ∧ win0_3.index t (2 : Fin 3) = 0
    ∧ win0_3.index t (0 : Fin 3) ≤ 7
    ∧ win0_3.index t (1 : Fin 3) ≤ 1 :=
  (by decide +kernel : ∀ t : Fin grid0.N, _)

/-- Every block `(g, h, 0)` of the result is some point's. -/
theorem index_onto : ∀ (g : Fin 8) (h : Fin 2), ∃ t : Fin cfg0.N, win0_3.index t = ![g.val, h.val, 0] :=
  (by decide +kernel : ∀ (g : Fin 8) (h : Fin 2), ∃ t : Fin grid0.N, win0_3.index t = ![g.val, h.val, 0])

/-- WHAT POINT `t` WRITES BACK is block `t` of the lookup of the argument arrays as the region finds them. -/
theorem flushed_eq (c : Dev nD) (t : Fin cfg0.N) :
    (dats m 0 c).flushed 3 t
      = ((cfg0.win 3).blk t).view.read (Elt Ideal)
          (Cert.Spec.lookupSq (V m c main_arg0) (V m c main_arg1) (V m c main_arg2)) := by
  rw [flushed3]
  unfold out0_3
  rw [View.canon_unit_zero zeros3]
  simp only [View.ld_unit_zero (S := S16x256) zeros2, View.ld_unit_zero (S := S512) zeros1,
    View.ld_unit_zero (S := S512x64) zeros2]
  obtain ⟨e0, e1, e2, e3, e4, e5, -, -⟩ := index_facts t
  funext y
  show k0_pay1 (iblk m c 0 t) (iblk m c 1 t) (iblk m c 2 t) y
    = Cert.Spec.lookupSq (V m c main_arg0) (V m c main_arg1) (V m c main_arg2) (((cfg0.win 3).blk t).view.emb y)
  refine pay_eq_lookup (V m c main_arg0) (V m c main_arg1) (V m c main_arg2) (iblk m c 0 t) (iblk m c 1 t) (iblk m c 2 t)
    y (((cfg0.win 3).blk t).view.emb y) ?_ ?_ ?_
  · show V m c main_arg0 (((cfg0.win 0).blk t).view.emb (ix2 (y 0) (y 1))) = _
    refine congrArg (V m c main_arg0) (funext fun a => Fin.ext ?_)
    match a with
    | ⟨0, _⟩ =>
      show win0_0.index t (0 : Fin 2) * 16 + 1 * (y 0).val = win0_3.index t (0 : Fin 3) * 16 + 1 * (y 0).val
      omega
    | ⟨1, _⟩ =>
      show win0_0.index t (1 : Fin 2) * 256 + 1 * (y 1).val = win0_3.index t (1 : Fin 3) * 256 + 1 * (y 1).val
      omega
  · intro k
    show V m c main_arg2 (((cfg0.win 1).blk t).view.emb (ix1 k)) = _
    refine congrArg (V m c main_arg2) (funext fun a => Fin.ext ?_)
    match a with
    | ⟨0, _⟩ =>
      show win0_1.index t (0 : Fin 1) * 512 + 1 * k.val = k.val
      omega
  · intro k
    show V m c main_arg1 (((cfg0.win 2).blk t).view.emb (ix2 k (y 2))) = _
    refine congrArg (V m c main_arg1) (funext fun a => Fin.ext ?_)
    match a with
    | ⟨0, _⟩ =>
      show win0_2.index t (0 : Fin 2) * 512 + 1 * k.val = k.val
      omega
    | ⟨1, _⟩ =>
      show win0_2.index t (1 : Fin 2) * 64 + 1 * (y 2).val = win0_3.index t (2 : Fin 3) * 64 + 1 * (y 2).val
      omega

/-- A result index is in point `t`'s block iff each coordinate is in the block's range on its axis. -/
theorem mem_blk (t : Fin cfg0.N) (i : S128x512x64.Idx) :
    i ∈ ((cfg0.win 3).blk t).view.set ↔ ∀ a : Fin 3, win0_3.index t a * S16x256x64.size a ≤ (i a).val
      ∧ (i a).val < win0_3.index t a * S16x256x64.size a + S16x256x64.size a := by
  show i ∈ ((View.whole main_v0).slice (win0_3.rect t)).set ↔ _
  rw [View.set_slice_whole, Rect.mem_set_unit]
  exact Iff.rfl

/-- THE COVER: result index `i` lies in the block of the point whose block index is `(i₀ / 16, i₁ / 256, 0)`. -/
theorem covered (i : S128x512x64.Idx) :
    ∃ t : Fin cfg0.N, (cfg0.win 3).flush t = true ∧ i ∈ ((cfg0.win 3).blk t).view.set := by
  have hi0 : (i 0).val < 128 := (i 0).isLt
  have hi1 : (i 1).val < 512 := (i 1).isLt
  have hi2 : (i 2).val < 64 := (i 2).isLt
  obtain ⟨t, ht⟩ := index_onto ⟨(i 0).val / 16, by omega⟩ ⟨(i 1).val / 256, by omega⟩
  have q0 : win0_3.index t (0 : Fin 3) = (i 0).val / 16 := congrFun ht 0
  have q1 : win0_3.index t (1 : Fin 3) = (i 1).val / 256 := congrFun ht 1
  have q2 : win0_3.index t (2 : Fin 3) = 0 := congrFun ht 2
  refine ⟨t, flush0_3 t, ?_⟩
  rw [mem_blk]
  intro a
  match a with
  | ⟨0, _⟩ =>
    show win0_3.index t (0 : Fin 3) * 16 ≤ (i 0).val ∧ (i 0).val < win0_3.index t (0 : Fin 3) * 16 + 16
    omega
  | ⟨1, _⟩ =>
    show win0_3.index t (1 : Fin 3) * 256 ≤ (i 1).val ∧ (i 1).val < win0_3.index t (1 : Fin 3) * 256 + 256
    omega
  | ⟨2, _⟩ =>
    show win0_3.index t (2 : Fin 3) * 64 ≤ (i 2).val ∧ (i 2).val < win0_3.index t (2 : Fin 3) * 64 + 64
    omega

/-- THE ARRAY after the run is the lookup of the three argument arrays. -/
theorem final (c : Dev nD) :
    (dats m 0 c).arrAt 3 cfg0.N
      = Cert.Spec.lookupSq (m ((c : Thread nD τ).loc main_arg0)) (m ((c : Thread nD τ).loc main_arg1))
          (m ((c : Thread nD τ).loc main_arg2)) :=
  (dats m 0 c).arrAt_eq_of_cover 3 _ (fun t _ => flushed_eq m c t) covered

/-- The kernel's run, read: the result array ends at the lookup of the arguments, the arguments unchanged. -/
theorem run : θ_run defs (onTc (τ := τ) (main (F := Ideal))) ⟨m, fun _ => 0, ρ⟩ fun r => ∀ c : Dev nD,
      r.2.mem ((c : Thread nD τ).loc main_v0)
        = Cert.Spec.lookupSq (m ((c : Thread nD τ).loc main_arg0)) (m ((c : Thread nD τ).loc main_arg1))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Lookup

end
-- ==== Proof.RefIsSpec.lean ====
/-
  The reference computes the lookup in the product form.

  Its result is a contraction over the grid points of a `[128, 512, 512]` tensor of weights with the embedding table;
  read at `(b, s, k)`, every broadcast of the chain leads back to timestamp `(b, s)` and grid point `k`, and the
  pointwise operations between them spell `Window.prodWeight` of the two.
-/
import proofs.«166597_j15032385536232_2_alg».proof.Proof.Gen.ReferenceIdeal.Read
import proofs.«166597_j15032385536232_2_alg».proof.Proof.Spec

noncomputable section

namespace Cert.ReferenceIdeal.RefValue

open Cert.ReferenceIdeal Cert.ReferenceIdeal.Read Idealize.ShloMosaic Idealize.ShloMosaic.ValueIdx

/-- The weight tensor at `(b, s, k)` is the product-form weight of timestamp `(b, s)` against grid point `k`. -/
theorem weight_apply (x0 : (⟨S128x512, .f32⟩ : BufTy).Contents (Elt Ideal)) (x2 : (⟨S512, .i32⟩ : BufTy).Contents (Elt Ideal))
    (i : S128x512x64.Idx) (k : Fin 512) :
    val_main_v22 (F := Ideal) x0 x2 (lidx_main_v23 i k)
      = Cert.Window.prodWeight (x0 (ix2 (i 0) (i 1))) ((((x2 (ix1 k)) : BitVec 32).toInt : ℝ) : EReal) := by
  have ex : idx_main_v2 (idx_main_v5 (lidx_main_v23 i k)) = ix2 (i 0) (i 1) :=
    funext fun a => by match a with | ⟨0, _⟩ => rfl | ⟨1, _⟩ => rfl
  have ep : idx_main_v4 (idx_main_v6 (lidx_main_v23 i k)) = ix1 k :=
    funext fun a => by match a with | ⟨0, _⟩ => rfl
  simp only [val_main_v22_apply, val_main_v21_apply, val_main_v20_apply, val_main_cst_4_apply, val_main_v19_apply,
    val_main_v18_apply, val_main_v17_apply, val_main_cst_3_apply, val_main_v16_apply, val_main_v15_apply,
    val_main_cst_2_apply, val_main_v14_apply, val_main_v13_apply, val_main_v12_apply, val_main_v11_apply,
    val_main_cst_1_apply, val_main_v10_apply, val_main_v9_apply, val_main_v8_apply, val_main_cst_0_apply,
    val_main_v7_apply, val_main_v6_apply, val_main_v5_apply, val_main_v4_apply, val_main_v3_apply, val_main_v2_apply,
    val_main_v1_apply, val_main_v0_apply, val_main_cst_apply, ex, ep]
  rfl

/-- The reference's result, as a function of its three arguments, is the product-form lookup. -/
theorem result_eq_lookupProd (x0 : (⟨S128x512, .f32⟩ : BufTy).Contents (Elt Ideal))
    (x1 : (⟨S512x64, .f32⟩ : BufTy).Contents (Elt Ideal)) (x2 : (⟨S512, .i32⟩ : BufTy).Contents (Elt Ideal)) :
    val_main_v23 (F := Ideal) x0 x1 x2 = Cert.Spec.lookupProd x0 x1 x2 := by
  funext i
  rw [val_main_v23_apply]
  unfold Cert.Spec.lookupProd
  refine Finset.sum_congr rfl fun k _ => ?_
  rw [weight_apply]
  have er : ridx_main_v23 i k = ix2 k (i 2) := funext fun a => by match a with | ⟨0, _⟩ => rfl | ⟨1, _⟩ => rfl
  rw [er]
  rfl

end Cert.ReferenceIdeal.RefValue

end
-- ==== Proof.Finite.lean ====
/-
  The precondition, read back: every timestamp is a real number.

  The predicate is `all (|x| < +inf) ∧ all (|E| < +inf)`, a conjunction of two reductions by `and`. Where it is one,
  the first reduction is one, so every entry `x j` has `max (x j) (−x j) < ⊤`; an extended real whose magnitude is
  below `⊤` is neither `⊤` nor `⊥`, hence a real. (The table's half of the predicate is not needed: the window law
  never opens the table's entries.)
-/
import proofs.«166597_j15032385536232_2_alg».proof.Pre_finite_inputs
import Idealize.ShloMosaic.PureOps.Ideal.Laws
import Idealize.ShloMosaic.Lib.ReduceAll
import Idealize.ShloMosaic.Lib.ValueIdx
import proofs.«166597_j15032385536232_2_alg».proof.Proof.Consts

noncomputable section

namespace Cert.Pre_finite_inputs.Finite

open Cert.Pre_finite_inputs Idealize.ShloMosaic

/-- The scalar shape has one index. -/
instance : Subsingleton S_.Idx := ⟨fun a b => funext fun d => d.elim0⟩

/-- An extended real whose magnitude `max a (−a)` is below `⊤` is a real number. -/
theorem real_of_abs_lt_top (a : EReal) (h : max a (-a) < ⊤) : ∃ r : ℝ, a = (r : EReal) := by
  induction a using EReal.rec with
  | bot => simp at h
  | top => simp at h
  | coe r => exact ⟨r, rfl⟩

/-- Where the precondition's predicate is all ones, every timestamp is a real number. -/
theorem timestamp_real [Facts] (x : FVec Ideal S128x512 .f32) (E : FVec Ideal S512x64 .f32) (p : IVec S512 32)
    (h : fn (F := Ideal) x E p = fun _ => 1#1) (j : S128x512.Idx) : ∃ r : ℝ, x j = (r : EReal) := by
  have h0 := congrFun h ValueIdx.ix0
  dsimp only [fn] at h0
  obtain ⟨h1, -⟩ := IntOp.andi_eq_one.1 h0
  have hj := Host.reduce_andi_all _ _ _ _ _ h1 j
  have hj' : Ideal.cmp .olt (max (x j) (-(x j))) (Ideal.ofBits .f32 0x7F800000#32) = 1#1 := hj
  rw [Cert.Consts.ofBits_inf] at hj'
  refine real_of_abs_lt_top (x j) ?_
  unfold Ideal.cmp at hj'
  by_contra hn
  simp [hn] at hj'

end Cert.Pre_finite_inputs.Finite

end
-- ==== Proof.lean ====
/-
  An embedding lookup through a rectangular window, in two spellings that are one function at finite timestamps.

  The arguments are timestamps `x : f32[128, 512]`, an embedding table `E : f32[512, 64]` and grid points
  `p : i32[512]`; the result is `out[b, s, e] = ∑ k, w (x[b, s], p[k]) · E[k, e]`, where the weight compares the
  scaled timestamp `512·x` with the grid point through two signs, `s₊ = sign (512·x − p + 1/2)` and
  `s₋ = sign (512·x − p − 1/2)`.

  • The kernel runs on an `8 × 2` grid of `[16, 256]` timestamp blocks. It folds the half-width into the grid points
    (`512·x − (p ∓ 1/2)`), takes `w = (s₊ − s₋)²`, flattens each block to `4096` rows and multiplies the `[4096, 512]`
    weights into the table on the matrix unit. Its signs are read off the sign bit; the idealized program spells
    that read as a comparison with zero (the two `preserves` conjuncts, one per sign).
  • The reference is plain array code: `w = (s₊ − s₋)/2 · (1 + s₊) · (1 − s₋)` on a `[128, 512, 512]` tensor,
    contracted with the table.

  On extended reals both signs are the order's sign, the format changes are the identity and both contractions are
  the same sum, so the two results differ only in the weight. For a FINITE timestamp `512·x − p − 1/2 < 512·x − p + 1/2`,
  which leaves five possible sign pairs, and on each the two weights agree (`0, 1, 4, 1, 0`: Proof/WindowLaw.lean).
  That is the one place the precondition is used, and only its half about `x`: grid points are integers, and the
  table's entries are never opened.

  The modules: Proof/Consts.lean (the constants' values), Proof/WindowLaw.lean (the two weights and the law),
  Proof/Spec.lean (the lookup as one function, in both spellings), Proof/LibRank3Layout.lean (rank-3 shape casts and
  broadcasts read at coordinates), Proof/KernelPayload.lean (one grid point's block entry), Proof/KernelValue.lean
  (the 16 blocks cover the array: the kernel's run ends at the lookup), Proof/RefIsSpec.lean (the reference's term is
  the lookup), Proof/Finite.lean (the precondition read back). The three frames are the generated ones; the
  reference's is its generated run with the result dropped.
-/
import proofs.«166597_j15032385536232_2_alg».proof.Defs
import proofs.«166597_j15032385536232_2_alg».proof.Proof.Gen.Kernel
import proofs.«166597_j15032385536232_2_alg».proof.Proof.Gen.Kernel.Skeleton
import proofs.«166597_j15032385536232_2_alg».proof.Proof.Gen.Kernel.Launch
import proofs.«166597_j15032385536232_2_alg».proof.Proof.Gen.Kernel.Points
import proofs.«166597_j15032385536232_2_alg».proof.Proof.Gen.Kernel.Frame
import proofs.«166597_j15032385536232_2_alg».proof.Proof.Gen.KernelIdeal
import proofs.«166597_j15032385536232_2_alg».proof.Proof.Gen.KernelIdeal.Skeleton
import proofs.«166597_j15032385536232_2_alg».proof.Proof.Gen.KernelIdeal.Launch
import proofs.«166597_j15032385536232_2_alg».proof.Proof.Gen.KernelIdeal.Points
import proofs.«166597_j15032385536232_2_alg».proof.Proof.Gen.KernelIdeal.Frame
import proofs.«166597_j15032385536232_2_alg».proof.Proof.Gen.ReferenceIdeal
import proofs.«166597_j15032385536232_2_alg».proof.Proof.Gen.Pre_finite_inputs
import proofs.«166597_j15032385536232_2_alg».proof.Proof.Gen.KernelIdeal.Value
import proofs.«166597_j15032385536232_2_alg».proof.Proof.Gen.ReferenceIdeal.Run
import proofs.«166597_j15032385536232_2_alg».proof.Proof.Gen.ReferenceIdeal.Read
import proofs.«166597_j15032385536232_2_alg».proof.Proof.KernelValue
import proofs.«166597_j15032385536232_2_alg».proof.Proof.RefIsSpec
import proofs.«166597_j15032385536232_2_alg».proof.Proof.Finite
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The two sign-bit reads, one per sign of the window: each is the rule's statement at the `[16, 256, 512]` tensor. -/
theorem preserves : Cert.preserves_Kernel_KernelIdeal :=
  ⟨IdealRules.sign_bit.statement Cert.KernelIdeal.S16x256x512 .f32,
    IdealRules.sign_bit.statement Cert.KernelIdeal.S16x256x512 .f32⟩

/-- From memories that agree on the three arguments, the kernel ends at the squared-sign lookup of them and the
    reference at the product-form lookup; the timestamps being finite, those are one array. -/
theorem algebraic : Cert.algebraic_KernelIdeal_ReferenceIdeal := by
  intro m ρ m' ρ' hpre hagree
  refine ⟨_, Cert.KernelIdeal.Lookup.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.RefValue.result_eq_lookupProd,
    (hagree c).1, (hagree c).2.1, (hagree c).2.2]
  exact Cert.Spec.lookupProd_eq_lookupSq _ _ _
    (fun j => Cert.Pre_finite_inputs.Finite.timestamp_real _ _ _ (hpre c) j)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
